-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x16000000 : Shape := ⟨2, ![2, 16000000]⟩
abbrev S2x2 : Shape := ⟨2, ![2, 2]⟩
abbrev S2 : Shape := ⟨1, ![2]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2x2 1) : IVec S_ 1 :=
  let main_c_5 : IVec S_ 1 := constantI S_ 1 1#1
  let main_v17 : IVec S_ 1 := (fun x v => Host.reduce IntOp.andi x v reducesTo_S2x2_S_d0_1 h_S_) main_v16 main_c_5
  let main_v18 : IVec S_ 1 := andi main_v13 main_v17
  main_v18

def fn {F : FTy → Type} [FloatOps F] (main_arg0 : FVec F S500000x2 .f32) (main_arg1 : IVec S2x16000000 32) (main_arg2 : FVec F S2x2 .f32) (main_arg3 : FVec F S2 .f32) (main_arg4 : FVec F S2x2 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S2x2 .f32 := Host.absf main_arg2
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x2 .f32 := Host.absf main_arg4
  let main_cst_4 : FVec F S_ .f32 := constant S_ .f32 0x7F800000#32
  let main_v15 : FVec F S2x2 .f32 := broadcastInDim S2x2 ![] bcast_S_S2x2 main_cst_4
  let main_v16 : IVec S2x2 1 := cmpf .olt main_v14 main_v15
  fn_part1 (F := F) main_v13 main_v16
-- ==== Kernel.lean ====
abbrev S500000x2 : Shape := ⟨2, ![500000, 2]⟩
abbrev S2x16000000 : Shape := ⟨2, ![2, 16000000]⟩
abbrev S2x2 : Shape := ⟨2, ![2, 2]⟩
abbrev S2 : Shape := ⟨1, ![2]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x2 : Shape := ⟨2, ![16000000, 2]⟩
abbrev S2x500000 : Shape := ⟨2, ![2, 500000]⟩
abbrev S2x524288 : Shape := ⟨2, ![2, 524288]⟩
abbrev S1x2 : Shape := ⟨2, ![1, 2]⟩
abbrev S2x65536 : Shape := ⟨2, ![2, 65536]⟩
abbrev S1x1 : Shape := ⟨2, ![1, 1]⟩
abbrev S1x65536 : Shape := ⟨2, ![1, 65536]⟩

abbrev nBuf : Space → Nat
  | .hbm => 34
  | .vmem => 9
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S2x2, .f32⟩
  | .hbm, ⟨3, _⟩ => ⟨S2, .f32⟩
  | .hbm, ⟨4, _⟩ => ⟨S2x2, .f32⟩
  | .hbm, ⟨5, _⟩ => ⟨S1x16000000, .i32⟩
  | .hbm, ⟨6, _⟩ => ⟨S16000000, .i32⟩
  | .hbm, ⟨7, _⟩ => ⟨S1x16000000, .i32⟩
  | .hbm, ⟨8, _⟩ => ⟨S16000000, .i32⟩
  | .hbm, ⟨9, _⟩ => ⟨S_, .i32⟩
  | .hbm, ⟨10, _⟩ => ⟨S16000000, .i32⟩
  | .hbm, ⟨11, _⟩ => ⟨S16000000, .i1⟩
  | .hbm, ⟨12, _⟩ => ⟨S_, .i32⟩
  | .hbm, ⟨13, _⟩ => ⟨S16000000, .i32⟩
  | .hbm, ⟨14, _⟩ => ⟨S16000000, .i32⟩
  | .hbm, ⟨15, _⟩ => ⟨S16000000, .i32⟩
  | .hbm, ⟨16, _⟩ => ⟨S16000000x1, .i32⟩
  | .hbm, ⟨17, _⟩ => ⟨S16000000x2, .f32⟩
  | .hbm, ⟨18, _⟩ => ⟨S_, .f32⟩
  | .hbm, ⟨19, _⟩ => ⟨S500000x2, .f32⟩
  | .hbm, ⟨20, _⟩ => ⟨S16000000x1, .i32⟩
  | .hbm, ⟨21, _⟩ => ⟨S500000x2, .f32⟩
  | .hbm, ⟨22, _⟩ => ⟨S2x500000, .f32⟩
  | .hbm, ⟨23, _⟩ => ⟨S_, .i32⟩
  | .hbm, ⟨24, _⟩ => ⟨S_, .f32⟩
  | .hbm, ⟨25, _⟩ => ⟨S2x524288, .f32⟩
  | .hbm, ⟨26, _⟩ => ⟨S2x500000, .f32⟩
  | .hbm, ⟨27, _⟩ => ⟨S_, .i32⟩
  | .hbm, ⟨28, _⟩ => ⟨S_, .f32⟩
  | .hbm, ⟨29, _⟩ => ⟨S2x524288, .f32⟩
  | .hbm, ⟨30, _⟩ => ⟨S1x2, .f32⟩
  | .hbm, ⟨31, _⟩ => ⟨S2x524288, .f32⟩
  | .hbm, ⟨32, _⟩ => ⟨S2x500000, .f32⟩
  | .hbm, ⟨33, _⟩ => ⟨S500000x2, .f32⟩
  | .local _ .vmem, ⟨0, _⟩ => ⟨S2x65536, .f32⟩
  | .local _ .vmem, ⟨1, _⟩ => ⟨S2x65536, .f32⟩
  | .local _ .vmem, ⟨2, _⟩ => ⟨S2x65536, .f32⟩
  | .local _ .vmem, ⟨3, _⟩ => ⟨S2x65536, .f32⟩
  | .local _ .vmem, ⟨4, _⟩ => ⟨S2x2, .f32⟩
  | .local _ .vmem, ⟨5, _⟩ => ⟨S1x2, .f32⟩
  | .local _ .vmem, ⟨6, _⟩ => ⟨S2x2, .f32⟩
  | .local _ .vmem, ⟨7, _⟩ => ⟨S2x65536, .f32⟩
  | .local _ .vmem, ⟨8, _⟩ => ⟨S2x65536, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x2 : S_.BroadcastsInDim S500000x2 (![] : Fin 0 → Fin S500000x2.rank)
  transposes_S500000x2_S2x500000_1_0 : S500000x2.Transposes [1, 0] S2x500000
  pads_S2x500000_S2x524288_000_0242880 : S2x500000.Pads (![0, 0] : Fin 2 → Nat) ![0, 24288] ![0, 0] S2x524288
  h_S_ : 0 < S_.numel
  shapeCasts_S2_S1x2 : S2.ShapeCasts S1x2
  inb_S2x65536_S2x65536_0_0 : ∀ a, (![0, 0] : Fin 2 → Nat) a + S2x65536.size a ≤ S2x65536.size a
  h_S2x65536 : 0 < S2x65536.numel
  shapeCasts_S2x65536_S2x65536 : S2x65536.ShapeCasts S2x65536
  inb_S2x2_S2x2_0_0 : ∀ a, (![0, 0] : Fin 2 → Nat) a + S2x2.size a ≤ S2x2.size a
  h_S2x2 : 0 < S2x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  inpos_S1x1_p0_0 : ∀ a, (![0, 0] : Fin 2 → Nat) a < S1x1.size a
  slices_S2x2_o0_0_S1x1 : S2x2.Slices ![0, 0] S1x1
  slices_S2x65536_o0_0_S1x65536 : S2x65536.Slices ![0, 0] S1x65536
  slices_S2x2_o0_1_S1x1 : S2x2.Slices ![0, 1] S1x1
  slices_S2x65536_o1_0_S1x65536 : S2x65536.Slices ![1, 0] S1x65536
  inb_S2x65536_S1x65536_0_0 : ∀ a, (![0, 0] : Fin 2 → Nat) a + S1x65536.size a ≤ S2x65536.size a
  h_S1x65536 : 0 < S1x65536.numel
  slices_S1x2_o0_1_S1x1 : S1x2.Slices ![0, 1] S1x1
  slices_S2x2_o1_0_S1x1 : S2x2.Slices ![1, 0] S1x1
  slices_S2x2_o1_1_S1x1 : S2x2.Slices ![1, 1] S1x1
  inb_S2x65536_S1x65536_1_0 : ∀ a, (![1, 0] : Fin 2 → Nat) a + S1x65536.size a ≤ S2x65536.size a
  slices_S2x524288_S2x500000_0_0 : S2x524288.Slices ![0, 0] S2x500000
  transposes_S2x500000_S500000x2_1_0 : S2x500000.Transposes [1, 0] S500000x2
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x65536.size a ≤ S2x524288.size a
  hwx0_0 : ∀ i : grid0.Coords, EltTy.bits .f32 = 32 ∨ (Rect.block (s := S2x524288) S2x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x65536.size a ≤ S2x524288.size a
  hwx0_1 : ∀ i : grid0.Coords, EltTy.bits .f32 = 32 ∨ (Rect.block (s := S2x524288) S2x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2.size a ≤ S2x2.size a
  hwx0_2 : ∀ i : grid0.Coords, EltTy.bits .f32 = 32 ∨ (Rect.block (s := S2x2) S2x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2.size a ≤ S2x2.size a
  hwx0_4 : ∀ i : grid0.Coords, EltTy.bits .f32 = 32 ∨ (Rect.block (s := S2x2) S2x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x65536.size a ≤ S2x524288.size a
  hwx0_5 : ∀ i : grid0.Coords, EltTy.bits .f32 = 32 ∨ (Rect.block (s := S2x524288) S2x65536.size (cc0_transform_5 i) (hinb0_5 i)).WholeWords (EltTy.packing .f32)

variable [Facts₀]

def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf

abbrev win0_0 : Pipeline.Window sig grid0 :=
  Pipeline.Window.ofSpec (Memref.whole main_v15) S2x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x2 : Shape := ⟨2, ![500000, 2]⟩
abbrev S2x16000000 : Shape := ⟨2, ![2, 16000000]⟩
abbrev S2x2 : Shape := ⟨2, ![2, 2]⟩
abbrev S2 : Shape := ⟨1, ![2]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x2 : Shape := ⟨2, ![16000000, 2]⟩
abbrev S1x2 : Shape := ⟨2, ![1, 2]⟩

abbrev nBuf : Space → Nat
  | .hbm => 30
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S2x2, .f32⟩
  | .hbm, ⟨3, _⟩ => ⟨S2, .f32⟩
  | .hbm, ⟨4, _⟩ => ⟨S2x2, .f32⟩
  | .hbm, ⟨5, _⟩ => ⟨S1x16000000, .i32⟩
  | .hbm, ⟨6, _⟩ => ⟨S16000000, .i32⟩
  | .hbm, ⟨7, _⟩ => ⟨S1x16000000, .i32⟩
  | .hbm, ⟨8, _⟩ => ⟨S16000000, .i32⟩
  | .hbm, ⟨9, _⟩ => ⟨S_, .i32⟩
  | .hbm, ⟨10, _⟩ => ⟨S16000000, .i32⟩
  | .hbm, ⟨11, _⟩ => ⟨S16000000, .i1⟩
  | .hbm, ⟨12, _⟩ => ⟨S_, .i32⟩
  | .hbm, ⟨13, _⟩ => ⟨S16000000, .i32⟩
  | .hbm, ⟨14, _⟩ => ⟨S16000000, .i32⟩
  | .hbm, ⟨15, _⟩ => ⟨S16000000, .i32⟩
  | .hbm, ⟨16, _⟩ => ⟨S16000000x1, .i32⟩
  | .hbm, ⟨17, _⟩ => ⟨S16000000x2, .f32⟩
  | .hbm, ⟨18, _⟩ => ⟨S_, .f32⟩
  | .hbm, ⟨19, _⟩ => ⟨S500000x2, .f32⟩
  | .hbm, ⟨20, _⟩ => ⟨S16000000x1, .i32⟩
  | .hbm, ⟨21, _⟩ => ⟨S500000x2, .f32⟩
  | .hbm, ⟨22, _⟩ => ⟨S2x2, .f32⟩
  | .hbm, ⟨23, _⟩ => ⟨S500000x2, .f32⟩
  | .hbm, ⟨24, _⟩ => ⟨S1x2, .f32⟩
  | .hbm, ⟨25, _⟩ => ⟨S500000x2, .f32⟩
  | .hbm, ⟨26, _⟩ => ⟨S500000x2, .f32⟩
  | .hbm, ⟨27, _⟩ => ⟨S2x2, .f32⟩
  | .hbm, ⟨28, _⟩ => ⟨S500000x2, .f32⟩
  | .hbm, ⟨29, _⟩ => ⟨S500000x2, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x2 : S_.BroadcastsInDim S500000x2 (![] : Fin 0 → Fin S500000x2.rank)
  transposes_S2x2_S2x2_1_0 : S2x2.Transposes [1, 0] S2x2
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  dot_S500000x2_S2x2_S500000x2_1_0_0_1_n_n_wf : DotDims.WF S500000x2 S2x2 S500000x2 [1] [0] [0] [1] [] []

variable [Facts₀]

def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def dot_S500000x2_S2x2_S500000x2_1_0_0_1_n_n : DotDims S500000x2 S2x2 S500000x2 where
  lhsContracting := [1]
  rhsContracting := [0]
  lhsNonContracting := [0]
  rhsNonContracting := [1]
  lhsBatch := []
  rhsBatch := []
  wf := dot_S500000x2_S2x2_S500000x2_1_0_0_1_n_n_wf

class Facts : Prop extends Facts₀ where

variable [Facts]
-- ==== Proof.Spec.lean ====
/-
  The node update of a graph convolution with sum aggregation, as one function on the extended reals.

  For node `n` and output feature `j`, with `aggr n k` the sum of the features `k` of the neighbours of `n`:

      out n j = b j + W_rel j 0 · aggr n 0 + W_root j 0 · x n 0 + W_rel j 1 · aggr n 1 + W_root j 1 · x n 1

  summed from the left in exactly this order (`combine`). A reference that computes the same value as
  `(aggr · W_relᵀ) n j + b j + (x · W_rootᵀ) n j` — two contractions over the two input features and the bias
  between them — groups and orders the five summands differently and writes each product with its factors
  exchanged (`contractions_eq_chain`). On the extended reals addition is associative and commutative and
  multiplication commutative at every value, the infinities included, and nothing here distributes a product
  over a sum: the two groupings agree with no finiteness assumption.
-/
import Idealize.ShloMosaic.PureOps.Ideal
import Idealize.ShloMosaic.Lib.ValueIdx

noncomputable section

namespace Cert.GraphConv

open Idealize.ShloMosaic Idealize.ShloMosaic.ValueIdx

/-- Node features, `[500000, 2]`: a node and one of its two features. -/
abbrev Nodes : Shape := ⟨2, ![500000, 2]⟩
/-- A weight matrix, `[2, 2]`: an output feature and an input feature. -/
abbrev Weights : Shape := ⟨2, ![2, 2]⟩
/-- The bias, `[2]`: an output feature. -/
abbrev Bias : Shape := ⟨1, ![2]⟩

/-- The node update: entry `(n, j)` is the bias `b j`, then for each input feature `k = 0, 1` in turn the
    aggregated neighbour feature weighted by `wrel j k` and the node's own feature weighted by `wroot j k`, added
    from the left. -/
def combine (x aggr : Nodes.Idx → EReal) (wrel wroot : Weights.Idx → EReal) (b : Bias.Idx → EReal) : Nodes.Idx → EReal :=
  fun i =>
    (((b (ix1 (i 1)) + wrel (ix2 (i 1) 0) * aggr (ix2 (i 0) 0)) + wroot (ix2 (i 1) 0) * x (ix2 (i 0) 0))
      + wrel (ix2 (i 1) 1) * aggr (ix2 (i 0) 1)) + wroot (ix2 (i 1) 1) * x (ix2 (i 0) 1)

/-- Two contractions over two terms with a bias between them are the left-to-right chain of the five summands:
    only associativity and commutativity of `+` and commutativity of `·`, which hold on all of the extended reals. -/
theorem contractions_eq_chain (b a0 a1 w0 w1 x0 x1 r0 r1 : EReal) :
    ((a0 * w0 + a1 * w1) + b) + (x0 * r0 + x1 * r1) = (((b + w0 * a0) + r0 * x0) + w1 * a1) + r1 * x1 := by
  rw [mul_comm a0 w0, mul_comm a1 w1, mul_comm x0 r0, mul_comm x1 r1]
  abel

end Cert.GraphConv

end
-- ==== Proof.RefValue.lean ====
/-
  The reference's result is the node update `combine` of its arguments and its own aggregate.

  The reference gathers the source nodes' features along the edges and scatter-adds them into the destination nodes
  (the aggregate `aggr`, a function of the features and the edge list that is never opened here), then computes
  `aggr · W_relᵀ + b + x · W_rootᵀ`: each matrix product a sum over the two input features, the transposes and the
  bias's broadcast pure re-indexings. Read at a node `n` and output feature `j` that is
  `((aggr n 0 · W_rel j 0 + aggr n 1 · W_rel j 1) + b j) + (x n 0 · W_root j 0 + x n 1 · W_root j 1)`, which
  `contractions_eq_chain` regroups into the left-to-right chain of `combine`.
-/
import proofs.«179859_j36541581754801_2_alg».proof.Proof.Gen.ReferenceIdeal.Read
import proofs.«179859_j36541581754801_2_alg».proof.Proof.Spec

noncomputable section

namespace Cert.ReferenceIdeal.RefValue

open Cert.ReferenceIdeal Cert.ReferenceIdeal.Read Idealize.ShloMosaic Idealize.ShloMosaic.ValueIdx Cert.GraphConv

/-- The reference's last stage, as a function of the five arguments, is `combine` over the reference's aggregate. -/
theorem result_eq (x0 : Vec Ideal S500000x2 .f32) (x1 : Vec Ideal S2x16000000 .i32) (x2 : Vec Ideal S2x2 .f32)
    (x3 : Vec Ideal S2 .f32) (x4 : Vec Ideal S2x2 .f32) :
    val_main_v21 (F := Ideal) x0 x1 x2 x3 x4 = combine x0 (val_main_v13 (F := Ideal) x0 x1) x2 x4 x3 := by
  funext i
  obtain ⟨n, j, rfl⟩ : ∃ (n : Fin 500000) (j : Fin 2), i = ix2 n j := ⟨i 0, i 1, eq_ix2 i⟩
  rw [val_main_v21_apply, val_main_v18_apply, val_main_v15_apply, val_main_v17_apply, val_main_v16_apply,
    val_main_v20_apply]
  simp only [val_main_v14_apply, val_main_v19_apply, Fin.sum_univ_two]
  have e0 : lidx_main_v15 (ix2 n j) 0 = ix2 n 0 := funext fun a => Fin.ext (by match a with | ⟨0, _⟩ => rfl | ⟨1, _⟩ => rfl)
  have e1 : lidx_main_v15 (ix2 n j) 1 = ix2 n 1 := funext fun a => Fin.ext (by match a with | ⟨0, _⟩ => rfl | ⟨1, _⟩ => rfl)
  have f0 : idx_main_v14 (ridx_main_v15 (ix2 n j) 0) = ix2 j 0 := funext fun a => Fin.ext (by match a with | ⟨0, _⟩ => rfl | ⟨1, _⟩ => rfl)
  have f1 : idx_main_v14 (ridx_main_v15 (ix2 n j) 1) = ix2 j 1 := funext fun a => Fin.ext (by match a with | ⟨0, _⟩ => rfl | ⟨1, _⟩ => rfl)
  have g0 : lidx_main_v20 (ix2 n j) 0 = ix2 n 0 := funext fun a => Fin.ext (by match a with | ⟨0, _⟩ => rfl | ⟨1, _⟩ => rfl)
  have g1 : lidx_main_v20 (ix2 n j) 1 = ix2 n 1 := funext fun a => Fin.ext (by match a with | ⟨0, _⟩ => rfl | ⟨1, _⟩ => rfl)
  have k0 : idx_main_v19 (ridx_main_v20 (ix2 n j) 0) = ix2 j 0 := funext fun a => Fin.ext (by match a with | ⟨0, _⟩ => rfl | ⟨1, _⟩ => rfl)
  have k1 : idx_main_v19 (ridx_main_v20 (ix2 n j) 1) = ix2 j 1 := funext fun a => Fin.ext (by match a with | ⟨0, _⟩ => rfl | ⟨1, _⟩ => rfl)
  have hb : idx_main_v16 (idx_main_v17 (ix2 n j)) = ix1 j := funext fun a => Fin.ext (by match a with | ⟨0, _⟩ => rfl)
  rw [e0, e1, f0, f1, g0, g1, k0, k1, hb]
  exact contractions_eq_chain _ _ _ _ _ _ _ _ _

end Cert.ReferenceIdeal.RefValue

end
-- ==== Proof.LibRowSlice.lean ====
/-
  Unit-stride slices of a rank-2 array read at an index, in coordinates.

  A `[1, n]` slice of an `[m, n]` array taken at offsets `(r, 0)` is row `r`: its entry `(0, q)` is the array's entry
  `(r, q)` (`row_slice_apply`). A `[1, 1]` slice taken at offsets `(r, c)` has one entry, the array's entry `(r, c)`
  (`entry_slice_apply`). Both are the slice's defining re-indexing, offset plus local coordinate, written with
  indices built from coordinates so that later steps can compare them by arithmetic.
-/
import Idealize.ShloMosaic.Lib.Pipeline.Value
import Idealize.ShloMosaic.Lib.ValueIdx

namespace Cert.LibRowSlice

open Idealize.ShloMosaic Idealize.ShloMosaic.ValueIdx

variable {α : Type}

/-- Row `r` of an `[m, n]` array, taken as the `[1, n]` slice at offsets `(r, 0)`, read at column `q`, is the
    array at `(r, q)`. -/
theorem row_slice_apply {m n : Nat} (off : Fin 2 → Nat) (x : (⟨2, ![m, n]⟩ : Shape).Idx → α)
    (h : (⟨2, ![m, n]⟩ : Shape).Slices off ⟨2, ![1, n]⟩) (r : Fin m) (hr : off 0 = r.val) (h0 : off 1 = 0)
    (z : Fin 1) (q : Fin n) :
    extractStridedSlice ⟨2, ![1, n]⟩ off x h (ix2 z q) = x (ix2 r q) :=
  extractStridedSlice_apply off x h (ix2 z q) (ix2 r q) (fun a => match a with
    | ⟨0, _⟩ => by have := z.isLt; show r.val = off 0 + z.val; omega
    | ⟨1, _⟩ => by show q.val = off 1 + q.val; omega)

/-- The one entry of the `[1, 1]` slice of an `[m, n]` array at offsets `(r, c)` is the array at `(r, c)`. -/
theorem entry_slice_apply {m n : Nat} (off : Fin 2 → Nat) (x : (⟨2, ![m, n]⟩ : Shape).Idx → α)
    (h : (⟨2, ![m, n]⟩ : Shape).Slices off ⟨2, ![1, 1]⟩) (pos : Fin 2 → Nat)
    (hp : ∀ a, pos a < (⟨2, ![1, 1]⟩ : Shape).size a) (r : Fin m) (c : Fin n) (hr : off 0 = r.val) (hc : off 1 = c.val) :
    extractAt pos (extractStridedSlice ⟨2, ![1, 1]⟩ off x h) hp = x (ix2 r c) := by
  unfold extractAt
  exact extractStridedSlice_apply off x h _ (ix2 r c) (fun a => match a with
    | ⟨0, _⟩ => by have := hp 0; show r.val = off 0 + pos 0; (have : pos 0 < 1 := this); omega
    | ⟨1, _⟩ => by have := hp 1; show c.val = off 1 + pos 1; (have : pos 1 < 1 := this); omega)

end Cert.LibRowSlice
-- ==== Proof.Block.lean ====
/-
  What the kernel body leaves in its output block, as one function of the blocks it loads.

  At a grid point the body holds a `[2, 65536]` block of the transposed, padded aggregate (`a`), the matching block of
  the transposed, padded node features (`x`), the two `[2, 2]` weight matrices (`w`, `r`) and the bias as a `[1, 2]`
  row (`b`). It stores the output block row by row: row `j` at lane `q` is

      b 0 j + w j 0 · a 0 q + r j 0 · x 0 q + w j 1 · a 1 q + r j 1 · x 1 q,

  added from the left. Each stored row is a chain of scalar-times-row products: the scalars are single entries of the
  small matrices, broadcast along the lanes, and the rows are the rows of the two big blocks. Read at an index every
  step is pointwise, so the two stores are the restrictions to rows 0 and 1 of ONE function of the block index
  (`blockCombine`), and two row stores that tile the block leave exactly that function.
-/
import proofs.«179859_j36541581754801_2_alg».proof.Proof.Gen.KernelIdeal.Frame
import proofs.«179859_j36541581754801_2_alg».proof.Proof.LibRowSlice
import Idealize.ShloMosaic.Lib.Pipeline.Value
import Idealize.ShloMosaic.Lib.ValueIdx

set_option maxRecDepth 16384

noncomputable section

namespace Cert.KernelIdeal.BlockValue

open Cert.KernelIdeal Cert.KernelIdeal.Gen Idealize.ShloMosaic Idealize.ShloMosaic.ValueIdx Cert.LibRowSlice

/-- The output block as a function of the loaded blocks: row `j`, lane `q`. -/
def blockCombine (a x : Vec Ideal S2x65536 .f32) (w r : Vec Ideal S2x2 .f32) (b : Vec Ideal S1x2 .f32) :
    S2x65536.Idx → EReal := fun y =>
  (((b (ix2 0 (y 0)) + w (ix2 (y 0) 0) * a (ix2 0 (y 1))) + r (ix2 (y 0) 0) * x (ix2 0 (y 1)))
    + w (ix2 (y 0) 1) * a (ix2 1 (y 1))) + r (ix2 (y 0) 1) * x (ix2 1 (y 1))

theorem zero_offsets : (![0, 0] : Fin 2 → Nat) = fun _ => 0 := funext fun a => by fin_cases a <;> rfl

/-- The first store's payload (output row 0) at lane `q`. -/
theorem row0_at (a x : Vec Ideal S2x65536 .f32) (w r : Vec Ideal S2x2 .f32) (b : Vec Ideal S1x2 .f32)
    (z : Fin 1) (q : Fin 65536) :
    k0_pay5 (F := Ideal) a x w r b (ix2 z q)
      = (((b (ix2 0 0) + w (ix2 0 0) * a (ix2 0 q)) + r (ix2 0 0) * x (ix2 0 q))
          + w (ix2 0 1) * a (ix2 1 q)) + r (ix2 0 1) * x (ix2 1 q) := by
  unfold k0_pay5 k0_pay2 k0_pay3 k0_pay4
  simp only [shapeCast_self, addf_apply, mulf_apply, broadcast_apply]
  rw [entry_slice_apply ![0, 0] b _ _ _ 0 0 rfl rfl, entry_slice_apply ![0, 0] w _ _ _ 0 0 rfl rfl,
    entry_slice_apply ![0, 0] r _ _ _ 0 0 rfl rfl, entry_slice_apply ![0, 1] w _ _ _ 0 1 rfl rfl,
    entry_slice_apply ![0, 1] r _ _ _ 0 1 rfl rfl,
    row_slice_apply ![0, 0] a _ 0 rfl rfl z q, row_slice_apply ![0, 0] x _ 0 rfl rfl z q,
    row_slice_apply ![1, 0] a _ 1 rfl rfl z q, row_slice_apply ![1, 0] x _ 1 rfl rfl z q]

/-- The second store's payload (output row 1) at lane `q`: the same chain with the bias entry and the weight rows
    of output feature 1. -/
theorem row1_at (a x : Vec Ideal S2x65536 .f32) (w r : Vec Ideal S2x2 .f32) (b : Vec Ideal S1x2 .f32)
    (z : Fin 1) (q : Fin 65536) :
    k0_pay1 (F := Ideal) (k0_pay2 a) (k0_pay3 x) w r (k0_pay6 a w b) (k0_pay7 r) (ix2 z q)
      = (((b (ix2 0 1) + w (ix2 1 0) * a (ix2 0 q)) + r (ix2 1 0) * x (ix2 0 q))
          + w (ix2 1 1) * a (ix2 1 q)) + r (ix2 1 1) * x (ix2 1 q) := by
  unfold k0_pay1 k0_pay6 k0_pay7 k0_pay2 k0_pay3 k0_pay4
  simp only [shapeCast_self, addf_apply, mulf_apply, broadcast_apply]
  rw [entry_slice_apply ![0, 1] b _ _ _ 0 1 rfl rfl, entry_slice_apply ![1, 0] w _ _ _ 1 0 rfl rfl,
    entry_slice_apply ![1, 0] r _ _ _ 1 0 rfl rfl, entry_slice_apply ![1, 1] w _ _ _ 1 1 rfl rfl,
    entry_slice_apply ![1, 1] r _ _ _ 1 1 rfl rfl,
    row_slice_apply ![0, 0] a _ 0 rfl rfl z q, row_slice_apply ![0, 0] x _ 0 rfl rfl z q,
    row_slice_apply ![1, 0] a _ 1 rfl rfl z q, row_slice_apply ![1, 0] x _ 1 rfl rfl z q]

/-- The two row stores together leave `blockCombine`: each store's payload is `blockCombine` restricted to its row,
    and the two rows tile the block. -/
theorem out0_5_eq (a x : Vec Ideal S2x65536 .f32) (w : Vec Ideal S2x2 .f32) (b : Vec Ideal S1x2 .f32) (r : Vec Ideal S2x2 .f32) :
    out0_5 (F := Ideal) a x w b r = blockCombine a x w r b := by
  funext y
  unfold out0_5
  simp only [View.ld_unit_zero (S := S2x65536) zero_offsets, View.ld_unit_zero (S := S2x2) zero_offsets,
    View.ld_unit_zero (S := S1x2) zero_offsets]
  refine View.canon_apply_of_pieces (Val := Elt Ideal) (e := .f32) (blockCombine a x w r b) _ ?_ y (cover0_5 _ _ y)
  intro p hp
  simp only [List.mem_cons, List.mem_nil_iff, or_false] at hp
  rcases hp with rfl | rfl
  · intro u
    obtain ⟨z, q, rfl⟩ : ∃ (z : Fin 1) (q : Fin 65536), u = ix2 z q := ⟨u 0, u 1, eq_ix2 u⟩
    have e : r0_4.emb (ix2 z q) = ix2 (1 : Fin 2) q := funext fun d => Fin.ext (by
      match d with
      | ⟨0, _⟩ => have := z.isLt; show 1 + 1 * z.val = 1; omega
      | ⟨1, _⟩ => show 0 + 1 * q.val = q.val; omega)
    show _ = blockCombine a x w r b (r0_4.emb (ix2 z q))
    rw [e]
    exact row1_at a x w r b z q
  · intro u
    obtain ⟨z, q, rfl⟩ : ∃ (z : Fin 1) (q : Fin 65536), u = ix2 z q := ⟨u 0, u 1, eq_ix2 u⟩
    have e : r0_3.emb (ix2 z q) = ix2 (0 : Fin 2) q := funext fun d => Fin.ext (by
      match d with
      | ⟨0, _⟩ => have := z.isLt; show 0 + 1 * z.val = 0; omega
      | ⟨1, _⟩ => show 0 + 1 * q.val = q.val; omega)
    show _ = blockCombine a x w r b (r0_3.emb (ix2 z q))
    rw [e]
    exact row0_at a x w r b z q

end Cert.KernelIdeal.BlockValue

end
-- ==== Proof.Layout.lean ====
/-
  The lane-dense arrangement of the node update, and its return to node-major order.

  The kernel works on TRANSPOSED arrays, `[2, N]` with the node along the long axis, padded on that axis from
  N = 500000 to 524288 = 8 · 65536 so that eight blocks of 65536 lanes tile it. On those arrays the update is
  `paddedCombine`: entry `(j, n)` is the chain `b j + W_rel j 0 · A 0 n + W_root j 0 · X 0 n + W_rel j 1 · A 1 n +
  W_root j 1 · X 1 n`, with the bias a `[1, 2]` row. Afterwards the first 500000 lanes are sliced off and the result
  transposed back.

  `relayout` says that this round trip is the node update `combine`: for a node `n < 500000` the padded transposes read
  at lane `n` are the original arrays at node `n` (the padding is never read, so its value is irrelevant), the bias row
  at `(0, j)` is the bias at `j`, and the outer slice and transpose read `paddedCombine` at `(j, n)`.
-/
import proofs.«179859_j36541581754801_2_alg».proof.Proof.Spec
import Idealize.ShloMosaic.Lib.Pipeline.Value
import Idealize.ShloMosaic.Lib.KernelVsHost

noncomputable section

namespace Cert.GraphConv

open Idealize.ShloMosaic Idealize.ShloMosaic.ValueIdx

/-- Feature-major node features, `[2, 500000]`. -/
abbrev Feat : Shape := ⟨2, ![2, 500000]⟩
/-- Feature-major node features padded to eight blocks of 65536 lanes, `[2, 524288]`. -/
abbrev Padded : Shape := ⟨2, ![2, 524288]⟩
/-- The bias as a row, `[1, 2]`. -/
abbrev BiasRow : Shape := ⟨2, ![1, 2]⟩
/-- A scalar. -/
abbrev Scalar0 : Shape := ⟨0, ![]⟩

/-- The node update on the padded feature-major arrays: output feature `i 0`, lane `i 1`. -/
def paddedCombine (A X : Padded.Idx → EReal) (W R : Weights.Idx → EReal) (B : BiasRow.Idx → EReal) : Padded.Idx → EReal :=
  fun i =>
    (((B (ix2 0 (i 0)) + W (ix2 (i 0) 0) * A (ix2 0 (i 1))) + R (ix2 (i 0) 0) * X (ix2 0 (i 1)))
      + W (ix2 (i 0) 1) * A (ix2 1 (i 1))) + R (ix2 (i 0) 1) * X (ix2 1 (i 1))

/-- A node-major array transposed and padded along the lanes, read at feature `k` and a lane `n` below 500000, is
    the array at node `n`, feature `k`: the padding value is not read. -/
theorem padded_transpose_apply (y : Nodes.Idx → EReal) (v : Scalar0.Idx → EReal) (hT : Nodes.Transposes [1, 0] Feat)
    (hP : Feat.Pads (![0, 0] : Fin 2 → Nat) ![0, 24288] ![0, 0] Padded) (hu : 0 < Scalar0.numel)
    (k : Fin 2) (n : Fin 500000) (n' : Fin 524288) (hn : n'.val = n.val) :
    pad Padded ![0, 0] ![0, 24288] ![0, 0] (transpose Feat [1, 0] y hT) v hP hu (ix2 k n') = y (ix2 n k) := by
  rw [pad_apply_of_inside ![0, 0] ![0, 24288] ![0, 0] _ v hP hu (ix2 k n') (ix2 k n) (fun a => match a with
    | ⟨0, _⟩ => by show k.val = 0 + k.val * (0 + 1); omega
    | ⟨1, _⟩ => by show n'.val = 0 + n.val * (0 + 1); omega)]
  exact transpose_apply [1, 0] y hT (ix2 k n) (ix2 n k) (fun b => match b with
    | ⟨0, _⟩ => rfl
    | ⟨1, _⟩ => rfl)

/-- Slicing the first 500000 lanes off `paddedCombine` of the padded transposes and transposing back gives `combine`. -/
theorem relayout (x aggr : Nodes.Idx → EReal) (W R : Weights.Idx → EReal) (b : Bias.Idx → EReal)
    (v v' : Scalar0.Idx → EReal) (hT : Nodes.Transposes [1, 0] Feat)
    (hP : Feat.Pads (![0, 0] : Fin 2 → Nat) ![0, 24288] ![0, 0] Padded) (hu : 0 < Scalar0.numel)
    (hC : Bias.ShapeCasts BiasRow) (hS : Padded.Slices ![0, 0] Feat) (hT' : Feat.Transposes [1, 0] Nodes) :
    transpose Nodes [1, 0]
      (extractStridedSlice Feat ![0, 0]
        (paddedCombine (pad Padded ![0, 0] ![0, 24288] ![0, 0] (transpose Feat [1, 0] aggr hT) v hP hu)
          (pad Padded ![0, 0] ![0, 24288] ![0, 0] (transpose Feat [1, 0] x hT) v' hP hu) W R (shapeCast BiasRow b hC)) hS) hT'
      = combine x aggr W R b := by
  funext i
  obtain ⟨n, j, rfl⟩ : ∃ (n : Fin 500000) (j : Fin 2), i = ix2 n j := ⟨i 0, i 1, eq_ix2 i⟩
  have hn : n.val < 524288 := by have := n.isLt; omega
  rw [transpose_apply [1, 0] _ hT' (ix2 n j) (ix2 j n) (fun b => match b with
    | ⟨0, _⟩ => rfl
    | ⟨1, _⟩ => rfl)]
  rw [extractStridedSlice_apply ![0, 0] _ hS (ix2 j n) (ix2 j ⟨n.val, hn⟩) (fun a => match a with
    | ⟨0, _⟩ => by show j.val = 0 + j.val; omega
    | ⟨1, _⟩ => by show n.val = 0 + n.val; omega)]
  unfold paddedCombine combine
  show (((shapeCast BiasRow b hC (ix2 0 j) + W (ix2 j 0) * pad Padded ![0, 0] ![0, 24288] ![0, 0] (transpose Feat [1, 0] aggr hT) v hP hu (ix2 0 ⟨n.val, hn⟩))
      + R (ix2 j 0) * pad Padded ![0, 0] ![0, 24288] ![0, 0] (transpose Feat [1, 0] x hT) v' hP hu (ix2 0 ⟨n.val, hn⟩))
      + W (ix2 j 1) * pad Padded ![0, 0] ![0, 24288] ![0, 0] (transpose Feat [1, 0] aggr hT) v hP hu (ix2 1 ⟨n.val, hn⟩))
      + R (ix2 j 1) * pad Padded ![0, 0] ![0, 24288] ![0, 0] (transpose Feat [1, 0] x hT) v' hP hu (ix2 1 ⟨n.val, hn⟩)
    = (((b (ix1 j) + W (ix2 j 0) * aggr (ix2 n 0)) + R (ix2 j 0) * x (ix2 n 0)) + W (ix2 j 1) * aggr (ix2 n 1)) + R (ix2 j 1) * x (ix2 n 1)
  rw [padded_transpose_apply aggr v hT hP hu 0 n ⟨n.val, hn⟩ rfl, padded_transpose_apply x v' hT hP hu 0 n ⟨n.val, hn⟩ rfl,
    padded_transpose_apply aggr v hT hP hu 1 n ⟨n.val, hn⟩ rfl, padded_transpose_apply x v' hT hP hu 1 n ⟨n.val, hn⟩ rfl,
    shapeCast_apply b hC (ix2 0 j) (ix1 j) (by rw [Shape.rowMajor_val_one, Shape.rowMajor_val_two]; show j.val = 0 * 2 + j.val; omega)]

end Cert.GraphConv

end
-- ==== Proof.Final.lean ====
/-
  The region's output array after the run: the node update on the padded feature-major arrays.

  The grid has eight points; point `t` works on lanes `[65536 · t, 65536 · (t + 1))` of the two big operands and of the
  output, all three windows moving together, while the weight matrices and the bias row are whole-array blocks that
  stay in place. So the block that point `t` writes back — the body's function `blockCombine` of the blocks it loaded —
  is the restriction to those lanes of ONE function of the whole operand arrays, `paddedCombine`; the eight blocks tile
  the `[2, 524288]` output, and the array ends holding `paddedCombine` everywhere.
-/
import proofs.«179859_j36541581754801_2_alg».proof.Proof.Block
import proofs.«179859_j36541581754801_2_alg».proof.Proof.Layout

set_option maxRecDepth 16384

noncomputable section

namespace Cert.KernelIdeal.Final

open Cert.KernelIdeal Cert.KernelIdeal.Gen Cert.KernelIdeal.BlockValue Cert.GraphConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The block indices over the grid: the two big inputs move with the output along the lanes, on feature block 0;
    the small operands stay at block (0, 0); the output's lane block is one of the eight. -/
theorem idx_facts : ∀ t : Fin cfg0.N,
    win0_0.index t (0 : Fin 2) = 0 ∧ win0_0.index t (1 : Fin 2) = win0_5.index t (1 : Fin 2)
    ∧ win0_1.index t (0 : Fin 2) = 0 ∧ win0_1.index t (1 : Fin 2) = win0_5.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) ≤ 7 :=
  (by decide +kernel : ∀ t : Fin grid0.N, _)

/-- Every one of the eight lane blocks is some point's. -/
theorem idx_onto : ∀ q : Fin 8, ∃ t : Fin cfg0.N, win0_5.index t = ![0, q.val] :=
  (by decide +kernel : ∀ q : Fin 8, ∃ t : Fin grid0.N, win0_5.index t = ![0, q.val])

/-- What point `t` writes back is block `t` of `paddedCombine` of the operand arrays as the region finds them. -/
theorem flushed_eq (c : Dev nD) (t : Fin cfg0.N) :
    (dats m 0 c).flushed 5 t = ((cfg0.win 5).blk t).view.read (Elt Ideal)
      (paddedCombine (V m c main_v15) (V m c main_v17) (V m c main_arg2) (V m c main_arg4) (V m c main_v18)) := by
  show (cfg0.win 5).cut (grid0.coords t) ((dats m 0 c).after 5 t) = _
  rw [after0_5, out0_5_eq]
  obtain ⟨a0, a1, x0, x1, w0, w1, b0, b1, r0, r1, o0, o1⟩ := idx_facts t
  funext j
  obtain ⟨p, q, rfl⟩ : ∃ (p : Fin 2) (q : Fin 65536), j = ix2 p q := ⟨j 0, j 1, eq_ix2 j⟩
  have hq : q.val < 65536 := q.isLt
  have hp : p.val < 2 := p.isLt
  have hlane : win0_5.index t (1 : Fin 2) * 65536 + q.val < 524288 := by omega
  have eO : ((cfg0.win 5).blk t).view.emb (ix2 p q) = ix2 p ⟨win0_5.index t (1 : Fin 2) * 65536 + q.val, hlane⟩ := by
    funext d; apply Fin.ext
    match d with
    | ⟨0, _⟩ => show win0_5.index t (0 : Fin 2) * 2 + 1 * p.val = p.val; omega
    | ⟨1, _⟩ => show win0_5.index t (1 : Fin 2) * 65536 + 1 * q.val = win0_5.index t (1 : Fin 2) * 65536 + q.val; omega
  have eA : ∀ k : Fin 2, ((cfg0.win 0).blk t).view.emb (ix2 k q) = ix2 k ⟨win0_5.index t (1 : Fin 2) * 65536 + q.val, hlane⟩ := by
    intro k; have hk : k.val < 2 := k.isLt
    funext d; apply Fin.ext
    match d with
    | ⟨0, _⟩ => show win0_0.index t (0 : Fin 2) * 2 + 1 * k.val = k.val; omega
    | ⟨1, _⟩ => show win0_0.index t (1 : Fin 2) * 65536 + 1 * q.val = win0_5.index t (1 : Fin 2) * 65536 + q.val; omega
  have eX : ∀ k : Fin 2, ((cfg0.win 1).blk t).view.emb (ix2 k q) = ix2 k ⟨win0_5.index t (1 : Fin 2) * 65536 + q.val, hlane⟩ := by
    intro k; have hk : k.val < 2 := k.isLt
    funext d; apply Fin.ext
    match d with
    | ⟨0, _⟩ => show win0_1.index t (0 : Fin 2) * 2 + 1 * k.val = k.val; omega
    | ⟨1, _⟩ => show win0_1.index t (1 : Fin 2) * 65536 + 1 * q.val = win0_5.index t (1 : Fin 2) * 65536 + q.val; omega
  have eW : ∀ k : Fin 2, ((cfg0.win 2).blk t).view.emb (ix2 p k) = ix2 p k := by
    intro k
    funext d; apply Fin.ext
    match d with
    | ⟨0, _⟩ => show win0_2.index t (0 : Fin 2) * 2 + 1 * p.val = p.val; omega
    | ⟨1, _⟩ => show win0_2.index t (1 : Fin 2) * 2 + 1 * k.val = k.val; omega
  have eR : ∀ k : Fin 2, ((cfg0.win 4).blk t).view.emb (ix2 p k) = ix2 p k := by
    intro k
    funext d; apply Fin.ext
    match d with
    | ⟨0, _⟩ => show win0_4.index t (0 : Fin 2) * 2 + 1 * p.val = p.val; omega
    | ⟨1, _⟩ => show win0_4.index t (1 : Fin 2) * 2 + 1 * k.val = k.val; omega
  have eB : ((cfg0.win 3).blk t).view.emb (ix2 0 p) = ix2 (0 : Fin 1) p := by
    funext d; apply Fin.ext
    match d with
    | ⟨0, _⟩ => show win0_3.index t (0 : Fin 2) * 1 + 1 * 0 = 0; omega
    | ⟨1, _⟩ => show win0_3.index t (1 : Fin 2) * 2 + 1 * p.val = p.val; omega
  let A : S2x524288.Idx → EReal := V m c main_v15
  let X : S2x524288.Idx → EReal := V m c main_v17
  let W : S2x2.Idx → EReal := V m c main_arg2
  let R : S2x2.Idx → EReal := V m c main_arg4
  let B : S1x2.Idx → EReal := V m c main_v18
  show (((B (((cfg0.win 3).blk t).view.emb (ix2 0 p))
          + W (((cfg0.win 2).blk t).view.emb (ix2 p 0)) * A (((cfg0.win 0).blk t).view.emb (ix2 0 q)))
        + R (((cfg0.win 4).blk t).view.emb (ix2 p 0)) * X (((cfg0.win 1).blk t).view.emb (ix2 0 q)))
        + W (((cfg0.win 2).blk t).view.emb (ix2 p 1)) * A (((cfg0.win 0).blk t).view.emb (ix2 1 q)))
        + R (((cfg0.win 4).blk t).view.emb (ix2 p 1)) * X (((cfg0.win 1).blk t).view.emb (ix2 1 q))
      = paddedCombine A X W R B (((cfg0.win 5).blk t).view.emb (ix2 p q))
  rw [eO, eA 0, eA 1, eX 0, eX 1, eW 0, eW 1, eR 0, eR 1, eB]
  rfl

/-- An index of the output array is in point `t`'s block iff each coordinate is in the block's range on its axis. -/
theorem mem_blk (t : Fin cfg0.N) (i : S2x524288.Idx) :
    i ∈ ((cfg0.win 5).blk t).view.set ↔ ∀ a : Fin 2, win0_5.index t a * S2x65536.size a ≤ (i a).val ∧ (i a).val < win0_5.index t a * S2x65536.size a + S2x65536.size a := by
  show i ∈ ((View.whole main_v19).slice (win0_5.rect t)).set ↔ _
  rw [View.set_slice_whole, Rect.mem_set_unit]
  exact Iff.rfl

/-- The eight blocks tile the output array: lane `l` is in the block of the point whose lane block is `l / 65536`. -/
theorem covered (i : S2x524288.Idx) :
    ∃ t : Fin cfg0.N, (cfg0.win 5).flush t = true ∧ i ∈ ((cfg0.win 5).blk t).view.set := by
  have hi0 : (i 0).val < 2 := (i 0).isLt
  have hi1 : (i 1).val < 524288 := (i 1).isLt
  obtain ⟨t, ht⟩ := idx_onto ⟨(i 1).val / 65536, by omega⟩
  have q0 : win0_5.index t (0 : Fin 2) = 0 := congrFun ht 0
  have q1 : win0_5.index t (1 : Fin 2) = (i 1).val / 65536 := congrFun ht 1
  refine ⟨t, flush0_5 t, ?_⟩
  rw [mem_blk]
  intro a
  match a with
  | ⟨0, _⟩ => show win0_5.index t (0 : Fin 2) * 2 ≤ (i 0).val ∧ (i 0).val < win0_5.index t (0 : Fin 2) * 2 + 2; omega
  | ⟨1, _⟩ => show win0_5.index t (1 : Fin 2) * 65536 ≤ (i 1).val ∧ (i 1).val < win0_5.index t (1 : Fin 2) * 65536 + 65536; omega

/-- The output array after the run is `paddedCombine` of the operand arrays as the region finds them. -/
theorem final (c : Dev nD) :
    (dats m 0 c).arrAt 5 cfg0.N
      = paddedCombine (V m c main_v15) (V m c main_v17) (V m c main_arg2) (V m c main_arg4) (V m c main_v18) :=
  (dats m 0 c).arrAt_eq_of_cover 5 _ (fun t _ => flushed_eq m c t) covered

end Cert.KernelIdeal.Final

end
-- ==== Proof.Inputs.lean ====
/-
  The arrays the kernel's region is launched on, as functions of the program's arguments.

  Before the region the host computes the aggregate — the source nodes' features gathered along the edges and
  scatter-added into the destination nodes (`aggregate`, a function of the features and the edge list that is never
  opened) — and lays the region's operands out: the aggregate and the features each transposed to feature-major order
  and padded along the lanes, the bias reshaped to a row; the two weight matrices go in as they are.

  The host lines are read in two stretches, so that the long first stretch (the index arithmetic, the gather and the
  scatter-add) is read once, on its own, and the layout lines after it are read over its results as opaque arrays.
-/
import proofs.«179859_j36541581754801_2_alg».proof.Proof.Gen.KernelIdeal.Frame
import Idealize.ShloMosaic.Lib.StableHlo.Run
import Idealize.ShloMosaic.PureOps.Ideal

set_option maxRecDepth 16384

noncomputable section

namespace Cert.KernelIdeal.Inputs

open Cert.KernelIdeal Cert.KernelIdeal.Gen Idealize.ShloMosaic Idealize.ShloMosaic.TcCoe Idealize.SL.Sem Idealize.ShloMosaic.StableHlo

/-- The aggregate: for each node the sum of the features of the sources of the edges that end at it. -/
def aggregate (x0 : Vec Ideal S500000x2 .f32) (x1 : Vec Ideal S2x16000000 .i32) : Vec Ideal S500000x2 .f32 :=
  (Host.scatterAdd (F := Ideal) scatter_S500000x2_S16000000x1_S16000000x2_1_0_0_1 (broadcastInDim S500000x2 ![] bcast_S_S500000x2 (constant (F := Ideal) S_ .f32 0x00000000#32)) (broadcastInDim S16000000x1 ![0] bcast_S16000000_S16000000x1_0 (shapeCast _ (extractStridedSlice S1x16000000 ![1, 0] (x1) slices_S2x16000000_S1x16000000_1_0) shapeCasts_S1x16000000_S16000000)) (Host.gather gather_S500000x2_S16000000x1_S16000000x2_1_0_n_n_0_1_12 (x0) (broadcastInDim S16000000x1 ![0] bcast_S16000000_S16000000x1_0 (select (cmpi .slt (shapeCast _ (extractStridedSlice S1x16000000 ![0, 0] (x1) slices_S2x16000000_S1x16000000_0_0) shapeCasts_S1x16000000_S16000000) (broadcastInDim S16000000 ![] bcast_S_S16000000 (constantI S_ 32 0#32))) (addi (shapeCast _ (extractStridedSlice S1x16000000 ![0, 0] (x1) slices_S2x16000000_S1x16000000_0_0) shapeCasts_S1x16000000_S16000000) (broadcastInDim S16000000 ![] bcast_S_S16000000 (constantI S_ 32 500000#32))) (shapeCast _ (extractStridedSlice S1x16000000 ![0, 0] (x1) slices_S2x16000000_S1x16000000_0_0) shapeCasts_S1x16000000_S16000000)))))

/-- Running two stretches of host lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt Ideal) ℓ)

/-- The buffers after the first stretch of host lines (up to the aggregate's transpose). -/
def afterFirst (c : Dev nD) : Valuation τ sig (Elt Ideal) := after hostOps0 (fun b => m (c, b))

/-- The region's entry contents are the remaining layout lines run over `afterFirst`. -/
theorem V0_split (c : Dev nD) :
    V0 m c = after (hostOps0_1 ++ (hostOps0_2 ++ (hostOps0_3 ++ hostOps0_4))) (afterFirst m c) := by
  unfold afterFirst
  rw [← after_append]
  dsimp only [V0]
  simp only [List.flatten_cons, List.flatten_nil, List.append_nil]

/-- After the first stretch the transposed aggregate is in place: the term of the host lines, unopened. -/
theorem afterFirst_aggregate_raw (c : Dev nD) :
    (afterFirst m c (Proc.devRef .tc main_v14) : S2x500000.Idx → EReal)
      = transpose S2x500000 [1, 0] (Host.scatterAdd (F := Ideal) scatter_S500000x2_S16000000x1_S16000000x2_1_0_0_1 (broadcastInDim S500000x2 ![] bcast_S_S500000x2 (constant (F := Ideal) S_ .f32 0x00000000#32)) (broadcastInDim S16000000x1 ![0] bcast_S16000000_S16000000x1_0 (shapeCast _ (extractStridedSlice S1x16000000 ![1, 0] (m ((c.tc : Thread nD τ).loc main_arg1)) slices_S2x16000000_S1x16000000_1_0) shapeCasts_S1x16000000_S16000000)) (Host.gather gather_S500000x2_S16000000x1_S16000000x2_1_0_n_n_0_1_12 (m ((c.tc : Thread nD τ).loc main_arg0)) (broadcastInDim S16000000x1 ![0] bcast_S16000000_S16000000x1_0 (select (cmpi .slt (shapeCast _ (extractStridedSlice S1x16000000 ![0, 0] (m ((c.tc : Thread nD τ).loc main_arg1)) slices_S2x16000000_S1x16000000_0_0) shapeCasts_S1x16000000_S16000000) (broadcastInDim S16000000 ![] bcast_S_S16000000 (constantI S_ 32 0#32))) (addi (shapeCast _ (extractStridedSlice S1x16000000 ![0, 0] (m ((c.tc : Thread nD τ).loc main_arg1)) slices_S2x16000000_S1x16000000_0_0) shapeCasts_S1x16000000_S16000000) (broadcastInDim S16000000 ![] bcast_S_S16000000 (constantI S_ 32 500000#32))) (shapeCast _ (extractStridedSlice S1x16000000 ![0, 0] (m ((c.tc : Thread nD τ).loc main_arg1)) slices_S2x16000000_S1x16000000_0_0) shapeCasts_S1x16000000_S16000000))))) transposes_S500000x2_S2x500000_1_0 := by
  unfold afterFirst
  after_results
  rfl

theorem afterFirst_aggregate (c : Dev nD) :
    (afterFirst m c (Proc.devRef .tc main_v14) : S2x500000.Idx → EReal)
      = transpose S2x500000 [1, 0] (aggregate (m ((c.tc : Thread nD τ).loc main_arg0)) (m ((c.tc : Thread nD τ).loc main_arg1))) transposes_S500000x2_S2x500000_1_0 :=
  afterFirst_aggregate_raw m c

/-- After the first stretch the constant that will pad the arrays is the integer zero. -/
theorem afterFirst_zero (c : Dev nD) :
    (afterFirst m c (Proc.devRef .tc main_c_1) : S_.Idx → BitVec 32) = constantI S_ 32 0#32 := by
  unfold afterFirst
  after_results

/-- The first stretch leaves the arguments as launched. -/
theorem afterFirst_arg0 (c : Dev nD) : afterFirst m c (Proc.devRef .tc main_arg0) = m ((c.tc : Thread nD τ).loc main_arg0) := by
  unfold afterFirst
  after_results
theorem afterFirst_arg3 (c : Dev nD) : afterFirst m c (Proc.devRef .tc main_arg3) = m ((c.tc : Thread nD τ).loc main_arg3) := by
  unfold afterFirst
  after_results

/-- The first operand at region entry: the transposed aggregate padded along the lanes. -/
theorem entry_aggregate (c : Dev nD) :
    (V m c main_v15 : S2x524288.Idx → EReal)
      = pad S2x524288 ![0, 0] ![0, 24288] ![0, 0]
          (transpose S2x500000 [1, 0] (aggregate (m ((c.tc : Thread nD τ).loc main_arg0)) (m ((c.tc : Thread nD τ).loc main_arg1))) transposes_S500000x2_S2x500000_1_0)
          (sitofp (F := Ideal) .f32 (constantI S_ 32 0#32)) pads_S2x500000_S2x524288_000_0242880 h_S_ := by
  rw [← afterFirst_aggregate m c, ← afterFirst_zero m c]
  show V0 m c (Proc.devRef .tc main_v15) = _
  rw [V0_split]
  simp only [hostOps0_1, hostOps0_2, hostOps0_3, hostOps0_4, List.cons_append, List.nil_append]
  after_results
  rfl

/-- The second operand at region entry: the transposed node features padded along the lanes. -/
theorem entry_features (c : Dev nD) :
    (V m c main_v17 : S2x524288.Idx → EReal)
      = pad S2x524288 ![0, 0] ![0, 24288] ![0, 0]
          (transpose S2x500000 [1, 0] (m ((c.tc : Thread nD τ).loc main_arg0)) transposes_S500000x2_S2x500000_1_0)
          (sitofp (F := Ideal) .f32 (constantI S_ 32 0#32)) pads_S2x500000_S2x524288_000_0242880 h_S_ := by
  rw [← afterFirst_arg0 m c]
  show V0 m c (Proc.devRef .tc main_v17) = _
  rw [V0_split]
  simp only [hostOps0_1, hostOps0_2, hostOps0_3, hostOps0_4, List.cons_append, List.nil_append]
  after_results
  rfl

/-- The bias operand at region entry: the bias as a row. -/
theorem entry_bias (c : Dev nD) :
    (V m c main_v18 : S1x2.Idx → EReal) = shapeCast S1x2 (m ((c.tc : Thread nD τ).loc main_arg3)) shapeCasts_S2_S1x2 := by
  rw [← afterFirst_arg3 m c]
  show V0 m c (Proc.devRef .tc main_v18) = _
  rw [V0_split]
  simp only [hostOps0_1, hostOps0_2, hostOps0_3, hostOps0_4, List.cons_append, List.nil_append]
  after_results
  rfl

end Cert.KernelIdeal.Inputs

end
-- ==== Proof.KernelValue.lean ====
/-
  The kernel program's result: the node update of its arguments and its own aggregate.

  After the region the host slices the first 500000 lanes off the region's `[2, 524288]` output and transposes them
  back to node-major order. The output array holds `paddedCombine` of the operand arrays the region was launched on
  (the padded transposes of the aggregate and of the features, the two weight matrices, the bias row), so by
  `relayout` the program's result is `combine` of the node features, the aggregate, the weights and the bias.
-/
import proofs.«179859_j36541581754801_2_alg».proof.Proof.Final
import proofs.«179859_j36541581754801_2_alg».proof.Proof.Inputs

set_option maxRecDepth 16384

noncomputable section

namespace Cert.KernelIdeal.KernelValue

open Cert.KernelIdeal Cert.KernelIdeal.Gen Cert.KernelIdeal.Final Cert.KernelIdeal.Inputs Cert.GraphConv
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result buffer after the lines that follow the region: the slice and transpose of the region's output. -/
theorem tail_eq (c : Dev nD) :
    (Pipeline.afterTail₀ cfgs (dats m) 0 (V0 m) [hostOps1] c main_v21 : S500000x2.Idx → EReal)
      = transpose S500000x2 [1, 0] (extractStridedSlice S2x500000 ![0, 0]
          (paddedCombine (V m c main_v15) (V m c main_v17) (V m c main_arg2) (V m c main_arg4) (V m c main_v18))
          slices_S2x524288_S2x500000_0_0) transposes_S2x500000_S500000x2_1_0 := by
  unfold Pipeline.afterTail₀
  show StableHlo.after hostOps1 _ (Proc.devRef .tc main_v21) = _
  after_results
  have e : (Pipeline.withArrays (cfgs 0).spec c (V0 m c) (fun w => (dats m 0 c).arrAt w (cfgs 0).N)
        (Proc.devRef .tc main_v19) : S2x524288.Idx → EReal)
      = paddedCombine (V m c main_v15) (V m c main_v17) (V m c main_arg2) (V m c main_arg4) (V m c main_v18) :=
    (Pipeline.withArrays_arr spec0 launch0.win.arr_inj c _ _ 5).trans (final m c)
  rw [e]

/-- The program's result is the node update of the arguments, over the kernel's aggregate. -/
theorem result_eq (c : Dev nD) :
    (Pipeline.afterTail₀ cfgs (dats m) 0 (V0 m) [hostOps1] c main_v21 : S500000x2.Idx → EReal)
      = combine (m ((c.tc : Thread nD τ).loc main_arg0))
          (aggregate (m ((c.tc : Thread nD τ).loc main_arg0)) (m ((c.tc : Thread nD τ).loc main_arg1)))
          (m ((c.tc : Thread nD τ).loc main_arg2)) (m ((c.tc : Thread nD τ).loc main_arg4)) (m ((c.tc : Thread nD τ).loc main_arg3)) := by
  rw [tail_eq, entry_aggregate, entry_features, entry_bias, V_main_arg2, V_main_arg4]
  exact relayout _ _ _ _ _ _ _ _ _ _ _ _ _

/-- Every weakly fair execution of the kernel program terminates, without a fault, with the result buffer holding the
    node update and the five arguments unchanged. -/
theorem run : θ_run defs (onTc (τ := τ) (main (F := Ideal))) ⟨m, fun _ => 0, ρ⟩ fun r => ∀ c : Dev nD,
      r.2.mem ((c.tc : Thread nD τ).loc main_v21)
        = combine (m ((c.tc : Thread nD τ).loc main_arg0))
            (aggregate (m ((c.tc : Thread nD τ).loc main_arg0)) (m ((c.tc : Thread nD τ).loc main_arg1)))
            (m ((c.tc : Thread nD τ).loc main_arg2)) (m ((c.tc : Thread nD τ).loc main_arg4)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.KernelValue

end
-- ==== Proof.Aggregates.lean ====
/-
  The two programs compute the same aggregate.

  Kernel and reference spell the aggregation with the same host lines, in the same order: the edge list's two rows
  sliced and flattened, negative source indices wrapped by the node count, the features gathered at the sources, and
  the gathered rows scatter-added from zero at the destinations. Each program states the side conditions of these
  lines for itself (the shape relations, the gather's and the scatter's dimension records), but they are the same
  relations between the same literal shapes, so the two terms are one function of the features and the edge list.
-/
import proofs.«179859_j36541581754801_2_alg».proof.Proof.Inputs
import proofs.«179859_j36541581754801_2_alg».proof.Proof.Gen.ReferenceIdeal.Read

noncomputable section

namespace Cert.GraphConv

open Idealize.ShloMosaic

/-- The kernel's aggregate is the reference's, as functions of the node features and the edge list. -/
theorem aggregate_eq (x0 : Vec Ideal Cert.KernelIdeal.S500000x2 .f32) (x1 : Vec Ideal Cert.KernelIdeal.S2x16000000 .i32) :
    Cert.KernelIdeal.Inputs.aggregate x0 x1 = Cert.ReferenceIdeal.Read.val_main_v13 (F := Ideal) x0 x1 := by
  unfold Cert.KernelIdeal.Inputs.aggregate Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_c Cert.ReferenceIdeal.Read.val_main_c_0
  rfl

end Cert.GraphConv

end
-- ==== Proof.lean ====
/-
  A graph convolution with sum aggregation, `out = (Σ_{j → i} x_j) · W_relᵀ + b + x · W_rootᵀ` on 500000 nodes with two
  features, computed two ways.

  Both programs form the aggregate `aggr` the same way, by the same host lines: gather the source nodes' features along
  the sixteen million edges and scatter-add them at the destination nodes. The reference then takes two matrix
  products and adds the bias between them. The kernel program transposes `aggr` and `x` to feature-major order, pads
  the node axis to eight blocks of 65536 lanes, and a kernel on a grid of eight points writes, for each output feature
  `j`, the row `b j + W_rel j 0 · aggr 0 + W_root j 0 · x 0 + W_rel j 1 · aggr 1 + W_root j 1 · x 1`; the padding
  is sliced off and the result transposed back.

  Read on the extended reals both results are, at node `n` and feature `j`, sums of the same five terms —
  the bias and four products of a weight with a feature of `aggr` or `x` at node `n` — grouped and ordered differently,
  with the factors of each product exchanged. Addition on the extended reals is associative and commutative,
  multiplication commutative, at the infinities too, and no product is distributed over a sum, so the two results
  are equal for ALL inputs: the finiteness precondition is not used. The aggregate is never opened: it is the same
  function of the features and the edge list in both programs.

  The parts: `Spec` (the node update `combine` and the regrouping law), `RefValue` (the reference is `combine`),
  `Block` (the kernel body's block), `Final` (the region's output array), `Inputs` (the operand arrays),
  `Layout` (padding, slicing and transposing cancel), `KernelValue` (the kernel program is `combine`),
  `Aggregates` (one aggregate).
-/
import proofs.«179859_j36541581754801_2_alg».proof.Defs
import proofs.«179859_j36541581754801_2_alg».proof.Proof.Gen.Kernel
import proofs.«179859_j36541581754801_2_alg».proof.Proof.Gen.Kernel.Skeleton
import proofs.«179859_j36541581754801_2_alg».proof.Proof.Gen.Kernel.Launch
import proofs.«179859_j36541581754801_2_alg».proof.Proof.Gen.Kernel.Points
import proofs.«179859_j36541581754801_2_alg».proof.Proof.Gen.Kernel.Frame
import proofs.«179859_j36541581754801_2_alg».proof.Proof.Gen.KernelIdeal
import proofs.«179859_j36541581754801_2_alg».proof.Proof.Gen.KernelIdeal.Skeleton
import proofs.«179859_j36541581754801_2_alg».proof.Proof.Gen.KernelIdeal.Launch
import proofs.«179859_j36541581754801_2_alg».proof.Proof.Gen.KernelIdeal.Points
import proofs.«179859_j36541581754801_2_alg».proof.Proof.Gen.KernelIdeal.Frame
import proofs.«179859_j36541581754801_2_alg».proof.Proof.Gen.ReferenceIdeal
import proofs.«179859_j36541581754801_2_alg».proof.Proof.Gen.ReferenceIdeal.Run
import proofs.«179859_j36541581754801_2_alg».proof.Proof.Gen.ReferenceIdeal.Read
import proofs.«179859_j36541581754801_2_alg».proof.Proof.Gen.Pre_finite_inputs
import proofs.«179859_j36541581754801_2_alg».proof.Proof.RefValue
import proofs.«179859_j36541581754801_2_alg».proof.Proof.KernelValue
import proofs.«179859_j36541581754801_2_alg».proof.Proof.Aggregates
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments the two idealized programs end with the same result: both hold
    the node update `combine` of the features, the common aggregate, the two weight matrices and the bias. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2.1,
    (hagree c).2.2.1, (hagree c).2.2.2.1, (hagree c).2.2.2.2, Cert.GraphConv.aggregate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
